-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x256 : Shape := ⟨2, ![8192, 256]⟩
abbrev S4096x256 : Shape := ⟨2, ![4096, 256]⟩
abbrev S_ : Shape := ⟨0, ![]⟩

class Facts : Prop where
  bcast_S_S8192x256 : S_.BroadcastsInDim S8192x256 (![] : Fin 0 → Fin S8192x256.rank)
  reducesTo_S8192x256_S_d0_1 : S8192x256.ReducesTo [0, 1] S_
  h_S_ : 0 < S_.numel
  bcast_S_S4096x256 : S_.BroadcastsInDim S4096x256 (![] : Fin 0 → Fin S4096x256.rank)
  reducesTo_S4096x256_S_d0_1 : S4096x256.ReducesTo [0, 1] S_

variable [Facts]

def fn {F : FTy → Type} [FloatOps F] (main_arg0 : FVec F S8192x256 .f32) (main_arg1 : FVec F S4096x256 .f32) : IVec S_ 1 :=
  let main_v0 : FVec F S8192x256 .f32 := Host.absf main_arg0
  let main_cst : FVec F S_ .f32 := constant S_ .f32 0x7F800000#32
  let main_v1 : FVec F S8192x256 .f32 := broadcastInDim S8192x256 ![] bcast_S_S8192x256 main_cst
  let main_v2 : IVec S8192x256 1 := cmpf .olt main_v0 main_v1
  let main_c : IVec S_ 1 := constantI S_ 1 1#1
  let main_v3 : IVec S_ 1 := (fun x v => Host.reduce IntOp.andi x v reducesTo_S8192x256_S_d0_1 h_S_) main_v2 main_c
  let main_v4 : FVec F S4096x256 .f32 := Host.absf main_arg1
  let main_cst_0 : FVec F S_ .f32 := constant S_ .f32 0x7F800000#32
  let main_v5 : FVec F S4096x256 .f32 := broadcastInDim S4096x256 ![] bcast_S_S4096x256 main_cst_0
  let main_v6 : IVec S4096x256 1 := cmpf .olt main_v4 main_v5
  let main_c_1 : IVec S_ 1 := constantI S_ 1 1#1
  let main_v7 : IVec S_ 1 := (fun x v => Host.reduce IntOp.andi x v reducesTo_S4096x256_S_d0_1 h_S_) main_v6 main_c_1
  let main_v8 : IVec S_ 1 := andi main_v3 main_v7
  main_v8
-- ==== Kernel.lean ====
abbrev S8192x256 : Shape := ⟨2, ![8192, 256]⟩
abbrev S4096x256 : Shape := ⟨2, ![4096, 256]⟩
abbrev S8192x4096 : Shape := ⟨2, ![8192, 4096]⟩
abbrev S1024x256 : Shape := ⟨2, ![1024, 256]⟩
abbrev S1024x1024 : Shape := ⟨2, ![1024, 1024]⟩
abbrev S1024 : Shape := ⟨1, ![1024]⟩
abbrev S1024x1 : Shape := ⟨2, ![1024, 1]⟩
abbrev S1x1024 : Shape := ⟨2, ![1, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x256, .f32⟩
  | .hbm, ⟨1, _⟩ => ⟨S4096x256, .f32⟩
  | .hbm, ⟨2, _⟩ => ⟨S8192x4096, .f32⟩
  | .local _ .vmem, ⟨0, _⟩ => ⟨S1024x256, .f32⟩
  | .local _ .vmem, ⟨1, _⟩ => ⟨S1024x256, .f32⟩
  | .local _ .vmem, ⟨2, _⟩ => ⟨S1024x256, .f32⟩
  | .local _ .vmem, ⟨3, _⟩ => ⟨S1024x256, .f32⟩
  | .local _ .vmem, ⟨4, _⟩ => ⟨S1024x1024, .f32⟩
  | .local _ .vmem, ⟨5, _⟩ => ⟨S1024x1024, .f32⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  inb_S1024x256_S1024x256_0_0 : ∀ a, (![0, 0] : Fin 2 → Nat) a + S1024x256.size a ≤ S1024x256.size a
  h_S1024x256 : 0 < S1024x256.numel
  reduces_S1024x256_S1024 : S1024x256.Reduces [1] S1024
  shapeCasts_S1024_S1024x1 : S1024.ShapeCasts S1024x1
  bitsLt_bf16_f32 : FTy.bits .bf16 < FTy.bits .f32
  shapeCasts_S1024_S1x1024 : S1024.ShapeCasts S1x1024
  broadcasts_S1024x1_S1024x1024 : S1024x1.Broadcasts S1024x1024
  broadcasts_S1x1024_S1024x1024 : S1x1024.Broadcasts S1024x1024
  inb_S1024x1024_S1024x1024_0_0 : ∀ a, (![0, 0] : Fin 2 → Nat) a + S1024x1024.size a ≤ S1024x1024.size a
  h_S1024x1024 : 0 < S1024x1024.numel
  dot_S1024x256_S1024x256_S1024x1024_1_1_0_0_n_n_wf : DotDims.WF S1024x256 S1024x256 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x256.size a ≤ S8192x256.size a
  hwx0_0 : ∀ i : grid0.Coords, EltTy.bits .f32 = 32 ∨ (Rect.block (s := S8192x256) S1024x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x256.size a ≤ S4096x256.size a
  hwx0_1 : ∀ i : grid0.Coords, EltTy.bits .f32 = 32 ∨ (Rect.block (s := S4096x256) S1024x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S8192x4096.size a
  hwx0_2 : ∀ i : grid0.Coords, EltTy.bits .f32 = 32 ∨ (Rect.block (s := S8192x4096) S1024x1024.size (cc0_transform_2 i) (hinb0_2 i)).WholeWords (EltTy.packing .f32)

variable [Facts₀]

def dot_S1024x256_S1024x256_S1024x1024_1_1_0_0_n_n : DotDims S1024x256 S1024x256 S1024x1024 where
  lhsContracting := [1]
  rhsContracting := [1]
  lhsNonContracting := [0]
  rhsNonContracting := [0]
  lhsBatch := []
  rhsBatch := []
  wf := dot_S1024x256_S1024x256_S1024x1024_1_1_0_0_n_n_wf

abbrev win0_0 : Pipeline.Window sig grid0 :=
  Pipeline.Window.ofSpec (Memref.whole main_arg0) S1024x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1024x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8192x256 : Shape := ⟨2, ![8192, 256]⟩
abbrev S4096x256 : Shape := ⟨2, ![4096, 256]⟩
abbrev S_ : Shape := ⟨0, ![]⟩
abbrev S8192 : Shape := ⟨1, ![8192]⟩
abbrev S8192x1 : Shape := ⟨2, ![8192, 1]⟩
abbrev S4096 : Shape := ⟨1, ![4096]⟩
abbrev S8192x4096 : Shape := ⟨2, ![8192, 4096]⟩
abbrev S1x4096 : Shape := ⟨2, ![1, 4096]⟩

abbrev nBuf : Space → Nat
  | .hbm => 26
  | .vmem => 0
  | .smem => 0
  | _ => 0

abbrev bufTy : (tb : Table) → Fin (tcTables nBuf tb) → BufTy
  | .hbm, ⟨0, _⟩ => ⟨S8192x256, .f32⟩
  | .hbm, ⟨1, _⟩ => ⟨S4096x256, .f32⟩
  | .hbm, ⟨2, _⟩ => ⟨S8192x256, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S4096x256, .f32⟩
  | .hbm, ⟨7, _⟩ => ⟨S_, .f32⟩
  | .hbm, ⟨8, _⟩ => ⟨S4096, .f32⟩
  | .hbm, ⟨9, _⟩ => ⟨S8192x4096, .f32⟩
  | .hbm, ⟨10, _⟩ => ⟨S1x4096, .f32⟩
  | .hbm, ⟨11, _⟩ => ⟨S8192x4096, .f32⟩
  | .hbm, ⟨12, _⟩ => ⟨S8192x4096, .f32⟩
  | .hbm, ⟨13, _⟩ => ⟨S8192x4096, .f32⟩
  | .hbm, ⟨14, _⟩ => ⟨S_, .f32⟩
  | .hbm, ⟨15, _⟩ => ⟨S8192x4096, .f32⟩
  | .hbm, ⟨16, _⟩ => ⟨S8192x4096, .f32⟩
  | .hbm, ⟨17, _⟩ => ⟨S8192x4096, .f32⟩
  | .hbm, ⟨18, _⟩ => ⟨S8192x4096, .f32⟩
  | .hbm, ⟨19, _⟩ => ⟨S_, .f32⟩
  | .hbm, ⟨20, _⟩ => ⟨S8192x4096, .f32⟩
  | .hbm, ⟨21, _⟩ => ⟨S8192x4096, .f32⟩
  | .hbm, ⟨22, _⟩ => ⟨S8192x4096, .f32⟩
  | .hbm, ⟨23, _⟩ => ⟨S_, .f32⟩
  | .hbm, ⟨24, _⟩ => ⟨S8192x4096, .f32⟩
  | .hbm, ⟨25, _⟩ => ⟨S8192x4096, .f32⟩
  | _, _ => ⟨S8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_2 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_3 : Ref sig .tc := ⟨.hbm, 23, rfl⟩
abbrev main_v17 : Ref sig .tc := ⟨.hbm, 24, rfl⟩
abbrev main_v18 : Ref sig .tc := ⟨.hbm, 25, rfl⟩

abbrev nD : Nat := 1
abbrev τ : Topo := Topo.v7x

variable {F : FTy → Type} [FloatOps F]

class Facts₀ : Prop where
  reducesTo_S8192x256_S8192_d1 : S8192x256.ReducesTo [1] S8192
  h_S_ : 0 < S_.numel
  bcast_S8192_S8192x1_0 : S8192.BroadcastsInDim S8192x1 (![0] : Fin 1 → Fin S8192x1.rank)
  reducesTo_S4096x256_S4096_d1 : S4096x256.ReducesTo [1] S4096
  bcast_S4096_S1x4096_1 : S4096.BroadcastsInDim S1x4096 (![1] : Fin 1 → Fin S1x4096.rank)
  bcast_S8192x1_S8192x4096_0_1 : S8192x1.BroadcastsInDim S8192x4096 (![0, 1] : Fin 2 → Fin S8192x4096.rank)
  bcast_S1x4096_S8192x4096_0_1 : S1x4096.BroadcastsInDim S8192x4096 (![0, 1] : Fin 2 → Fin S8192x4096.rank)
  bcast_S_S8192x4096 : S_.BroadcastsInDim S8192x4096 (![] : Fin 0 → Fin S8192x4096.rank)
  dot_S8192x256_S4096x256_S8192x4096_1_1_0_0_n_n_wf : DotDims.WF S8192x256 S4096x256 S8192x4096 [1] [1] [0] [0] [] []

variable [Facts₀]

def dot_S8192x256_S4096x256_S8192x4096_1_1_0_0_n_n : DotDims S8192x256 S4096x256 S8192x4096 where
  lhsContracting := [1]
  rhsContracting := [1]
  lhsNonContracting := [0]
  rhsNonContracting := [0]
  lhsBatch := []
  rhsBatch := []
  wf := dot_S8192x256_S4096x256_S8192x4096_1_1_0_0_n_n_wf

class Facts : Prop extends Facts₀ where

variable [Facts]
-- ==== Proof.RbfTable.lean ====
/-
  The table of radial-basis values of two families of points in 256 coordinates, over the extended reals.

  For a matrix `a` whose rows are points and a matrix `b` whose rows are centres, the squared distance between point
  `r` and centre `s` is taken in its expanded form |a_r|² + |b_s|² − 2·(a_r · b_s), and the table's entry is
  15 · exp(−d / 1). The three sums run over the 256 coordinates; the constants 2, 1 and 15 are kept as the binary words
  that denote them, since the same word stands on both sides of every comparison made with this table.

  An entry depends on `a` only through row `r` and on `b` only through row `s` (`value_congr`): this is what lets a
  block of rows of each matrix stand in for the whole matrix. `value_of_parts` rebuilds an entry from its three sums when
  the negation is written as a subtraction from zero, which is the same extended real for every argument, infinite ones
  included (0 − d = −d needs no finiteness).
-/
import Idealize.ShloMosaic.Lib.ValueIdx
import Idealize.ShloMosaic.PureOps.Ideal.Laws

open scoped BigOperators

noncomputable section

namespace Cert.Rbf

open Idealize.ShloMosaic Idealize.ShloMosaic.ValueIdx

/-- |a_r|²: the sum of the squares of row `r`'s 256 entries. -/
def sqLen {n : ℕ} (a : (⟨2, ![n, 256]⟩ : Shape).Idx → EReal) (r : Fin n) : EReal :=
  ∑ k : Fin 256, a (ix2 r k) * a (ix2 r k)

/-- a_r · b_s: the sum over the 256 coordinates of the products of row `r` of `a` and row `s` of `b`. -/
def rowDot {n n' : ℕ} (a : (⟨2, ![n, 256]⟩ : Shape).Idx → EReal) (b : (⟨2, ![n', 256]⟩ : Shape).Idx → EReal)
    (r : Fin n) (s : Fin n') : EReal :=
  ∑ k : Fin 256, a (ix2 r k) * b (ix2 s k)

/-- The squared distance between row `r` of `a` and row `s` of `b`, expanded: |a_r|² + |b_s|² − 2·(a_r · b_s). -/
def sqDist {n n' : ℕ} (a : (⟨2, ![n, 256]⟩ : Shape).Idx → EReal) (b : (⟨2, ![n', 256]⟩ : Shape).Idx → EReal)
    (r : Fin n) (s : Fin n') : EReal :=
  sqLen a r + sqLen b s - Ideal.ofBits .f32 0x40000000#32 * rowDot a b r s

/-- The radial-basis value 15 · exp(−d / 1) of the squared distance `d` between row `r` of `a` and row `s` of `b`. -/
def value {n n' : ℕ} (a : (⟨2, ![n, 256]⟩ : Shape).Idx → EReal) (b : (⟨2, ![n', 256]⟩ : Shape).Idx → EReal)
    (r : Fin n) (s : Fin n') : EReal :=
  Ideal.ofBits .f32 0x41700000#32 * Ideal.exp (Ideal.div (-(sqDist a b r s)) (Ideal.ofBits .f32 0x3F800000#32))

/-- An entry depends only on the two rows it is taken at: matrices that agree along those rows give the same value. -/
theorem value_congr {n n' l l' : ℕ} {a : (⟨2, ![n, 256]⟩ : Shape).Idx → EReal} {b : (⟨2, ![n', 256]⟩ : Shape).Idx → EReal}
    {a' : (⟨2, ![l, 256]⟩ : Shape).Idx → EReal} {b' : (⟨2, ![l', 256]⟩ : Shape).Idx → EReal}
    {r : Fin n} {s : Fin n'} {r' : Fin l} {s' : Fin l'}
    (ha : ∀ k : Fin 256, a (ix2 r k) = a' (ix2 r' k)) (hb : ∀ k : Fin 256, b (ix2 s k) = b' (ix2 s' k)) :
    value a b r s = value a' b' r' s' := by
  unfold value sqDist sqLen rowDot
  simp only [ha, hb]

/-- An entry from its three sums, the negation written as a subtraction from the word of zero: on the extended reals
    0 − d is −d for every d. -/
theorem value_of_parts {n n' : ℕ} {a : (⟨2, ![n, 256]⟩ : Shape).Idx → EReal} {b : (⟨2, ![n', 256]⟩ : Shape).Idx → EReal}
    {r : Fin n} {s : Fin n'} {u v w : EReal} (hu : u = sqLen a r) (hv : v = sqLen b s) (hw : w = rowDot a b r s) :
    Ideal.ofBits .f32 0x41700000#32
        * Ideal.exp (Ideal.div (Ideal.ofBits .f32 0x00000000#32 - ((u + v) - Ideal.ofBits .f32 0x40000000#32 * w))
            (Ideal.ofBits .f32 0x3F800000#32))
      = value a b r s := by
  subst hu hv hw
  unfold value sqDist
  rw [Ideal.ofBits_zero_f32, zero_sub]

/-- The whole table for 8192 points and 4096 centres: entry (r, s) is the value at point `r` and centre `s`. -/
def table (x : (⟨2, ![8192, 256]⟩ : Shape).Idx → EReal) (w : (⟨2, ![4096, 256]⟩ : Shape).Idx → EReal) :
    (⟨2, ![8192, 4096]⟩ : Shape).Idx → EReal :=
  fun i => value x w (i 0) (i 1)

/-- The table at a pair of coordinates. -/
theorem table_ix2 (x : (⟨2, ![8192, 256]⟩ : Shape).Idx → EReal) (w : (⟨2, ![4096, 256]⟩ : Shape).Idx → EReal)
    (r : Fin 8192) (s : Fin 4096) : table x w (ix2 r s) = value x w r s := rfl

end Cert.Rbf

end
-- ==== Proof.ReferenceTable.lean ====
/-
  The reference computes the table of radial-basis values.

  Read one operation at a time, the reference's result at (r, s) is
  15 · exp( −( (0 + Σ_k x(r,k)²) + (0 + Σ_k w(s,k)²) − 2 · Σ_k x(r,k)·w(s,k) ) / 1 ):
  the two sums of squares start from the word of zero, which is the extended real 0 and adds nothing; each broadcast
  only moves an index (the column of |x_r|² is read at its row, the row of |w_s|² at its column); and the contraction
  of the second coordinate of both matrices is the sum over the 256 coordinates of the products. What is left is,
  symbol for symbol, the table's entry.
-/
import proofs.«127577_j36258113913185_1_alg».proof.Proof.Gen.ReferenceIdeal.Read
import proofs.«127577_j36258113913185_1_alg».proof.Proof.RbfTable

open scoped BigOperators

noncomputable section

namespace Cert.ReferenceIdeal.RefValue

open Cert.ReferenceIdeal Cert.ReferenceIdeal.Gen Cert.ReferenceIdeal.Read
open Idealize.ShloMosaic Idealize.ShloMosaic.ValueIdx

/-- Through the two broadcasts, the sum of squares of `x` that entry (r, s) sees runs along row `r`. -/
theorem idx_sq_x (r : Fin 8192) (s : Fin 4096) (k : Fin 256) :
    idx_main_v1 (idx_main_v2 (idx_main_v7 (ix2 r s))) k = ix2 r k :=
  funext fun a => Fin.ext (by match a with | ⟨0, _⟩ => rfl | ⟨1, _⟩ => rfl)

/-- Through the two broadcasts, the sum of squares of `w` that entry (r, s) sees runs along row `s`. -/
theorem idx_sq_w (r : Fin 8192) (s : Fin 4096) (k : Fin 256) :
    idx_main_v4 (idx_main_v6 (idx_main_v8 (ix2 r s))) k = ix2 s k :=
  funext fun a => Fin.ext (by match a with | ⟨0, _⟩ => rfl | ⟨1, _⟩ => rfl)

/-- The contraction's left factor at entry (r, s) and coordinate `k` is `x (r, k)`, -/
theorem idx_dot_x (r : Fin 8192) (s : Fin 4096) (k : Fin 256) : lidx_main_v5 (ix2 r s) k = ix2 r k :=
  funext fun a => Fin.ext (by match a with | ⟨0, _⟩ => rfl | ⟨1, _⟩ => rfl)

/-- and its right factor is `w (s, k)`. -/
theorem idx_dot_w (r : Fin 8192) (s : Fin 4096) (k : Fin 256) : ridx_main_v5 (ix2 r s) k = ix2 s k :=
  funext fun a => Fin.ext (by match a with | ⟨0, _⟩ => rfl | ⟨1, _⟩ => rfl)

/-- The reference's last stage is the table, entry by entry. -/
theorem stage_eq_table (x : (⟨S8192x256, .f32⟩ : BufTy).Contents (Elt Ideal)) (w : (⟨S4096x256, .f32⟩ : BufTy).Contents (Elt Ideal)) :
    val_main_v18 (F := Ideal) x w = Cert.Rbf.table x w := by
  funext i
  obtain ⟨r, s, rfl⟩ : ∃ (r : Fin 8192) (s : Fin 4096), i = ix2 r s := ⟨i 0, i 1, eq_ix2 i⟩
  rw [Cert.Rbf.table_ix2]
  rw [val_main_v18_apply, val_main_v17_apply, val_main_cst_3_apply, val_main_v16_apply, val_main_v15_apply,
    val_main_v14_apply, val_main_cst_2_apply, val_main_v13_apply, val_main_v12_apply, val_main_v11_apply,
    val_main_v10_apply, val_main_cst_1_apply, val_main_v5_apply, val_main_v9_apply, val_main_v7_apply,
    val_main_v2_apply, val_main_v1_apply, val_main_cst_apply, val_main_v8_apply, val_main_v6_apply,
    val_main_v4_apply, val_main_cst_0_apply]
  simp only [val_main_v0_apply, val_main_v3_apply, idx_sq_x, idx_sq_w, idx_dot_x, idx_dot_w,
    Ideal.ofBits_def, Ideal.mulf_def, Ideal.addf_def, Ideal.subf_def, Ideal.hostNegf_def, Ideal.negf_def,
    Ideal.hostDivf_def, Ideal.hostUnary_exp_def, Ideal.ofBits_zero_f32, zero_add]
  rfl

end Cert.ReferenceIdeal.RefValue

end
-- ==== Proof.LibKeepdims.lean ====
/-
  Layout and reduction facts a row-wise kernel needs when its payload is read at one index, over the extended reals:
  the column forms of a "keep the reduced axis" computation — a vector of row values viewed as a one-column matrix,
  and a one-column matrix spread over every column —, a row's maximum as the fold of `max` over the row's entries, the
  two binary words that encode `-∞`, and the two pointwise operations (absolute value, rounding to even) at an index.
-/
import Idealize.ShloMosaic.Lib.ValueLayout
import Idealize.ShloMosaic.PureOps.Ideal.Laws

namespace Cert.LibKeepdims

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

section AtIdeal
variable {s : Shape} {φ : FTy}

/-- An absolute value at an index is the larger of the element and its negation … -/
theorem absf_apply (a : FVec Ideal s φ) (i : s.Idx) : absf a i = max (a i) (-(a i)) := rfl
/-- … and a rounding to even rounds the element. -/
theorem roundeven_apply (a : FVec Ideal s φ) (i : s.Idx) : roundeven a i = Ideal.liftRound Ideal.roundHalfEven (a i) := rfl

end AtIdeal

/-- At the extended reals a scalar constant is what its word denotes. -/
theorem scalar_ofBits (φ : FTy) (b : BitVec φ.bits) : Scalar.ofBits (F := Ideal) φ b = Ideal.ofBits φ b := rfl

/-- The f32 word `0xFF800000` is `-∞`. -/
theorem negInf_f32 : Ideal.ofBits .f32 0xFF800000#32 = (⊥ : EReal) := by simp [Ideal.ofBits, Ideal.ieee]
/-- The bf16 word `0xFF80` is `-∞`. -/
theorem negInf_bf16 : Ideal.ofBits .bf16 0xFF80#16 = (⊥ : EReal) := by simp [Ideal.ofBits, Ideal.ieee]

/-- A row's maximum: the `maximumf` reduction of an `[a, b]` array over its columns reads, at row `p`, the fold of
    `max` from the accumulator's value over the row's `b` entries. -/
theorem rowMax_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ) (p : Fin a) :
    multiReduction .maximumf [1] ⟨1, ![a]⟩ src acc h hφ hacc (ix1 p)
      = (Finset.univ : Finset (Fin b)).fold max (Ideal.ofBits φ acc) (fun k => src (ix2 p k)) := by
  refine (Ideal.multiReduction_maximumf_single src acc h hφ hacc (ix1 p)).trans ?_
  show (Finset.univ : Finset (Fin b)).fold max (Ideal.ofBits φ acc) (src ∘ h.lift (ix1 p)) = _
  congr 1
  funext k
  show src (h.lift (ix1 p) k) = src (ix2 p k)
  congr 1
  funext d; apply Fin.ext
  match d with
  | ⟨0, _⟩ => rfl
  | ⟨1, _⟩ => rfl

end Cert.LibKeepdims
-- ==== Proof.LibMatmulIdx.lean ====
/-
  A matrix product accumulated into zero, read entry by entry over the extended reals, for any extents: rows by columns
  (`[m, k] · [k, n]`, the entry at `(a, b)` is `∑ c, A (a, c) · B (c, b)`), and rows by rows (`[m, k]` against `[n, k]`, both
  contracted on their second coordinate: `∑ c, A (a, c) · B (b, c)`). The dimension numbers are written out literally, so
  a program's own record of them unifies with the statement by unfolding.
-/
import Idealize.ShloMosaic.Lib.ValueIdx
import Idealize.ShloMosaic.PureOps.Ideal.Laws

open scoped BigOperators

noncomputable section

namespace Cert.LibMatmulIdx

open Idealize.ShloMosaic Idealize.ShloMosaic.ValueIdx

/-! ## A matrix product into the zero splat, read at a row and a column -/

/-- Rows by columns: the entry at `(a, b)` of an `m × k` by `k × n` product accumulated into zero is the sum
    over the contracted coordinate of the products of the two entries. -/
theorem matmul_rc_apply {m k n : Nat} {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (a : Fin m) (b : Fin n) :
    FloatOps.matmul (⟨[1], [0], [0], [1], [], [], w⟩ : DotDims ⟨2, ![m, k]⟩ ⟨2, ![k, n]⟩ ⟨2, ![m, n]⟩) prec A B
        (constant (F := Ideal) ⟨2, ![m, n]⟩ .f32 0x00000000#32) (ix2 a b)
      = ∑ c : Fin k, A (ix2 a c) * B (ix2 c b) := by
  rw [Ideal.matmul_constant_zero_apply,
    ← Equiv.sum_comp (contrEquiv1 (⟨[1], [0], [0], [1], [], [], w⟩ : DotDims ⟨2, ![m, k]⟩ ⟨2, ![k, n]⟩ ⟨2, ![m, n]⟩) k rfl rfl).symm]
  refine Finset.sum_congr rfl fun c _ => ?_
  have hc := contrEquiv1_symm_val
    (⟨[1], [0], [0], [1], [], [], w⟩ : DotDims ⟨2, ![m, k]⟩ ⟨2, ![k, n]⟩ ⟨2, ![m, n]⟩) k rfl rfl c
  have hl : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact hc
  have hr : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact hc
    | ⟨1, _⟩ => simp [DotDims.rhsIdx]; rfl
  rw [hl, hr]

/-- Rows by rows: both operands contracted on their second coordinate. The entry at `(a, b)` of an `m × k` by
    `n × k` product accumulated into zero is the sum over the contracted coordinate of row `a` of the left times
    row `b` of the right. -/
theorem matmul_rr_apply {m k n : Nat} {φ₁ φ₂ : FTy}
    (w : DotDims.WF ⟨2, ![m, k]⟩ ⟨2, ![n, k]⟩ ⟨2, ![m, n]⟩ [1] [1] [0] [0] [] [])
    (prec : Option ContractPrecision) (A : FVec Ideal ⟨2, ![m, k]⟩ φ₁) (B : FVec Ideal ⟨2, ![n, k]⟩ φ₂)
    (a : Fin m) (b : Fin n) :
    FloatOps.matmul (⟨[1], [1], [0], [0], [], [], w⟩ : DotDims ⟨2, ![m, k]⟩ ⟨2, ![n, k]⟩ ⟨2, ![m, n]⟩) prec A B
        (constant (F := Ideal) ⟨2, ![m, n]⟩ .f32 0x00000000#32) (ix2 a b)
      = ∑ c : Fin k, A (ix2 a c) * B (ix2 b c) := by
  rw [Ideal.matmul_constant_zero_apply,
    ← Equiv.sum_comp (contrEquiv1 (⟨[1], [1], [0], [0], [], [], w⟩ : DotDims ⟨2, ![m, k]⟩ ⟨2, ![n, k]⟩ ⟨2, ![m, n]⟩) k rfl rfl).symm]
  refine Finset.sum_congr rfl fun c _ => ?_
  have hc := contrEquiv1_symm_val
    (⟨[1], [1], [0], [0], [], [], w⟩ : DotDims ⟨2, ![m, k]⟩ ⟨2, ![n, k]⟩ ⟨2, ![m, n]⟩) k rfl rfl c
  have hl : (⟨[1], [1], [0], [0], [], [], w⟩ : DotDims ⟨2, ![m, k]⟩ ⟨2, ![n, k]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact hc
  have hr : (⟨[1], [1], [0], [0], [], [], w⟩ : DotDims ⟨2, ![m, k]⟩ ⟨2, ![n, k]⟩ ⟨2, ![m, n]⟩).rhsIdx (ix2 a b)
      ((contrEquiv1 _ k rfl rfl).symm c) = ix2 b c := by
    funext ax; apply Fin.ext
    match ax with
    | ⟨0, _⟩ => simp [DotDims.rhsIdx]; rfl
    | ⟨1, _⟩ => simp [DotDims.rhsIdx]; exact hc
  rw [hl, hr]

end Cert.LibMatmulIdx

end
-- ==== Proof.LibRowSum.lean ====
/-
  A lane sum read at one row, over the extended reals: summing an [a, b] array along its second coordinate gives, at
  row p, the sum over the b entries of that row — for any extents and any float format. The inserted index that the
  library's one-axis reduction law speaks of is, at literal rank two, the pair (p, k).
-/
import Idealize.ShloMosaic.Lib.ValueIdx
import Idealize.ShloMosaic.PureOps.Ideal.Laws

open scoped BigOperators

namespace Cert.LibRowSum

open Idealize.ShloMosaic Idealize.ShloMosaic.ValueIdx

/-- A row's sum: the `add` reduction of an `[a, b]` array over its columns reads, at row `p`, the sum of the row's
    `b` entries (the accumulator is the sum's neutral element, so it contributes nothing). -/
theorem rowSum_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (p : Fin a) :
    multiReduction .add [1] ⟨1, ![a]⟩ src acc h hφ hacc (ix1 p) = ∑ k : Fin b, src (ix2 p k) := by
  refine (Ideal.multiReduction_add_single src acc h hφ hacc (ix1 p)).trans ?_
  show ∑ k : Fin b, src (h.lift (ix1 p) k) = _
  refine Finset.sum_congr rfl fun k _ => congrArg src ?_
  funext d; apply Fin.ext
  match d with
  | ⟨0, _⟩ => rfl
  | ⟨1, _⟩ => rfl

end Cert.LibRowSum
-- ==== Proof.BlockEntry.lean ====
/-
  One grid point's body, entry by entry.

  At a grid point the body holds a block `x0` of 1024 points and a block `x1` of 1024 centres, each with 256 coordinates,
  and stores a 1024 × 1024 block. Its entry (p, q) is 15 · exp((0 − ((A + B) − 2·C)) / 1) where
    A — the lane sums of the squares of `x0`, viewed as a column and spread over the columns — is |x0_p|² at every column,
    B — the lane sums of the squares of `x1`, viewed as a row and spread over the rows — is |x1_q|² at every row,
    C — the product of the two blocks contracted on their second coordinate, accumulated into zero — is x0_p · x1_q
        (the operands' narrowing to a shorter format changes no extended real).
  Everything around A, B and C acts entry by entry, so the body's entry is the radial-basis value of the two blocks at
  rows p and q.
-/
import proofs.«127577_j36258113913185_1_alg».proof.Proof.Gen.KernelIdeal.Skeleton
import proofs.«127577_j36258113913185_1_alg».proof.Proof.RbfTable
import proofs.«127577_j36258113913185_1_alg».proof.Proof.LibKeepdims
import proofs.«127577_j36258113913185_1_alg».proof.Proof.LibMatmulIdx
import proofs.«127577_j36258113913185_1_alg».proof.Proof.LibRowSum
import Idealize.ShloMosaic.Lib.ValueLayout

open scoped BigOperators

noncomputable section

namespace Cert.KernelIdeal.Hand

open Cert.KernelIdeal Cert.KernelIdeal.Gen
open Idealize.ShloMosaic Idealize.ShloMosaic.ValueIdx

/-- A: the squared lengths of the block's rows, as a column spread over every column, read at (p, q): |x_p|². -/
theorem sqColumn_apply (x : FVec Ideal ⟨2, ![1024, 256]⟩ .f32)
    (hr : (⟨2, ![1024, 256]⟩ : Shape).Reduces [1] ⟨1, ![1024]⟩) (hφ : FKind.Formats .f32)
    (hacc : (0x00000000#32 : BitVec (FTy.bits .f32)) = FKind.add.neutral .f32 hφ)
    (hc : (⟨1, ![1024]⟩ : Shape).ShapeCasts ⟨2, ![1024, 1]⟩) (hb : (⟨2, ![1024, 1]⟩ : Shape).Broadcasts ⟨2, ![1024, 1024]⟩)
    (p q : Fin 1024) :
    broadcastTo ⟨2, ![1024, 1024]⟩
        (shapeCast ⟨2, ![1024, 1]⟩ (multiReduction .add [1] ⟨1, ![1024]⟩ (mulf x x) 0x00000000#32 hr hφ hacc) hc) hb (ix2 p q)
      = Cert.Rbf.sqLen x p :=
  (Cert.LibKeepdims.broadcastTo_a1_ab_apply _ hb p q).trans
    ((Cert.LibKeepdims.shapeCast_a_a1_apply _ hc p 0).trans (Cert.LibRowSum.rowSum_apply (mulf x x) _ hr hφ hacc p))

/-- B: the squared lengths of the block's rows, as a row spread over every row, read at (p, q): |x_q|². -/
theorem sqRow_apply (x : FVec Ideal ⟨2, ![1024, 256]⟩ .f32)
    (hr : (⟨2, ![1024, 256]⟩ : Shape).Reduces [1] ⟨1, ![1024]⟩) (hφ : FKind.Formats .f32)
    (hacc : (0x00000000#32 : BitVec (FTy.bits .f32)) = FKind.add.neutral .f32 hφ)
    (hc : (⟨1, ![1024]⟩ : Shape).ShapeCasts ⟨2, ![1, 1024]⟩) (hb : (⟨2, ![1, 1024]⟩ : Shape).Broadcasts ⟨2, ![1024, 1024]⟩)
    (p q : Fin 1024) :
    broadcastTo ⟨2, ![1024, 1024]⟩
        (shapeCast ⟨2, ![1, 1024]⟩ (multiReduction .add [1] ⟨1, ![1024]⟩ (mulf x x) 0x00000000#32 hr hφ hacc) hc) hb (ix2 p q)
      = Cert.Rbf.sqLen x q :=
  (broadcastTo_1b_ab_apply _ hb p q).trans
    ((shapeCast_a_1a_apply _ hc 0 q).trans (Cert.LibRowSum.rowSum_apply (mulf x x) _ hr hφ hacc q))

/-- C: the two blocks, narrowed, contracted on their second coordinate into zero, read at (p, q): x_p · y_q. -/
theorem rowsProduct_apply (x y : FVec Ideal ⟨2, ![1024, 256]⟩ .f32) (hlt : FTy.bits .bf16 < FTy.bits .f32)
    (hw : DotDims.WF ⟨2, ![1024, 256]⟩ ⟨2, ![1024, 256]⟩ ⟨2, ![1024, 1024]⟩ [1] [1] [0] [0] [] []) (p q : Fin 1024) :
    matmul (⟨[1], [1], [0], [0], [], [], hw⟩ : DotDims ⟨2, ![1024, 256]⟩ ⟨2, ![1024, 256]⟩ ⟨2, ![1024, 1024]⟩) none
        (truncf .bf16 x hlt) (truncf .bf16 y hlt) (constant (F := Ideal) ⟨2, ![1024, 1024]⟩ .f32 0x00000000#32) (ix2 p q)
      = Cert.Rbf.rowDot x y p q :=
  Cert.LibMatmulIdx.matmul_rr_apply hw none (truncf .bf16 x hlt) (truncf .bf16 y hlt) p q

/-- The body's entry (p, q) is the radial-basis value of the two blocks at rows p and q. -/
theorem entry_eq_value (x0 x1 : Vec Ideal S1024x256 .f32) (p q : Fin 1024) :
    k0_pay1 (F := Ideal) x0 x1 (ix2 p q) = Cert.Rbf.value x0 x1 p q :=
  Cert.Rbf.value_of_parts
    (sqColumn_apply x0 reduces_S1024x256_S1024 (.inl rfl) rfl shapeCasts_S1024_S1024x1 broadcasts_S1024x1_S1024x1024 p q)
    (sqRow_apply x1 reduces_S1024x256_S1024 (.inl rfl) rfl shapeCasts_S1024_S1x1024 broadcasts_S1x1024_S1024x1024 p q)
    (rowsProduct_apply x0 x1 bitsLt_bf16_f32 dot_S1024x256_S1024x256_S1024x1024_1_1_0_0_n_n_wf p q)

/-- The same at any index of the block, for matrices that agree with the blocks along the rows the entry is taken
    at: the body's entry is then the radial-basis value of those matrices at the matching rows. -/
theorem entry_of_rows {n n' : ℕ} (x0 x1 : Vec Ideal S1024x256 .f32)
    (X : (⟨2, ![n, 256]⟩ : Shape).Idx → EReal) (W : (⟨2, ![n', 256]⟩ : Shape).Idx → EReal)
    (j : S1024x1024.Idx) (r : Fin n) (s : Fin n')
    (hx : ∀ k : Fin 256, x0 (ix2 (j 0) k) = X (ix2 r k)) (hw : ∀ k : Fin 256, x1 (ix2 (j 1) k) = W (ix2 s k)) :
    k0_pay1 (F := Ideal) x0 x1 j = Cert.Rbf.value X W r s :=
  (congrArg (k0_pay1 (F := Ideal) x0 x1) (eq_ix2 j)).trans
    ((entry_eq_value x0 x1 (j 0) (j 1)).trans (Cert.Rbf.value_congr hx hw))

end Cert.KernelIdeal.Hand

end
-- ==== Proof.TableBlocks.lean ====
/-
  The kernel's result array is the table of radial-basis values.

  The grid has 8 × 4 points. At point (I, J) the body is given rows 1024·I … 1024·I + 1023 of the points `x` and rows
  1024·J … 1024·J + 1023 of the centres `w`, and writes back the 1024 × 1024 block of the result whose corner is
  (1024·I, 1024·J). Entry (p, q) of what it writes is the radial-basis value of the two row blocks at rows p and q, and
  row p of the first block is row 1024·I + p of `x`, row q of the second is row 1024·J + q of `w`: so the point writes
  exactly its block of the table. The 32 blocks tile the 8192 × 4096 array — the block that holds (a, b) is the one at
  (a / 1024, b / 1024) — so after the run the whole array is the table.
-/
import proofs.«127577_j36258113913185_1_alg».proof.Proof.Gen.KernelIdeal.Value
import proofs.«127577_j36258113913185_1_alg».proof.Proof.BlockEntry
import Idealize.ShloMosaic.Lib.Pipeline.Value

noncomputable section

open Idealize.ShloMosaic Idealize.ShloMosaic.TcCoe Idealize.SL.Sem Idealize.ShloMosaic.ValueIdx
open Idealize.ShloMosaic.Pipeline (Dat)

namespace Cert.KernelIdeal.Hand

open Cert.KernelIdeal Cert.KernelIdeal.Gen Cert.KernelIdeal.Value

variable (m : (ℓ : Loc nD τ sig) → Buf (Elt Ideal) ℓ) (ρ : Dev nD → PrngReg)

theorem origin : (![0, 0] : Fin 2 → Nat) = fun _ => 0 := funext fun a => by fin_cases a <;> rfl

/-- The three index maps over the 32 grid points: the points' block moves with the result's row block, the centres'
    block with the result's column block, neither moves along the coordinates, and the result's block indices stay
    below 8 and 4. -/
theorem block_indices : ∀ t : Fin cfg0.N,
    win0_0.index t (0 : Fin 2) = win0_2.index t (0 : Fin 2)
    ∧ win0_0.index t (1 : Fin 2) = 0
    ∧ win0_1.index t (0 : Fin 2) = win0_2.index t (1 : Fin 2)
    ∧ win0_1.index t (1 : Fin 2) = 0
    ∧ win0_2.index t (0 : Fin 2) ≤ 7
    ∧ win0_2.index t (1 : Fin 2) ≤ 3 :=
  (by decide +kernel : ∀ t : Fin grid0.N, _)

/-- Every one of the 8 × 4 blocks of the result is some grid point's. -/
theorem block_of_every_corner : ∀ (I : Fin 8) (J : Fin 4), ∃ t : Fin cfg0.N, win0_2.index t = ![I.val, J.val] :=
  (by decide +kernel : ∀ (I : Fin 8) (J : Fin 4), ∃ t : Fin grid0.N, win0_2.index t = ![I.val, J.val])

/-- Row `y 0` of the points' block at point `t` is row 1024·I + `y 0` of `x`, coordinate by coordinate. -/
theorem points_block_apply (c : Dev nD) (t : Fin cfg0.N) (y : S1024x256.Idx) (i : S8192x256.Idx)
    (h0 : (i 0).val = win0_0.index t (0 : Fin 2) * 1024 + (y 0).val)
    (h1 : (i 1).val = win0_0.index t (1 : Fin 2) * 256 + (y 1).val) :
    (iblk m c 0 t : Vec Ideal S1024x256 .f32) y = (V m c main_arg0 : S8192x256.Idx → EReal) i := by
  show V m c main_arg0 (((cfg0.win 0).blk t).view.emb y) = V m c main_arg0 i
  congr 1
  funext a; apply Fin.ext
  match a with
  | ⟨0, _⟩ => show win0_0.index t (0 : Fin 2) * 1024 + 1 * (y 0).val = (i 0).val; omega
  | ⟨1, _⟩ => show win0_0.index t (1 : Fin 2) * 256 + 1 * (y 1).val = (i 1).val; omega

/-- Row `y 0` of the centres' block at point `t` is row 1024·J + `y 0` of `w`, coordinate by coordinate. -/
theorem centres_block_apply (c : Dev nD) (t : Fin cfg0.N) (y : S1024x256.Idx) (i : S4096x256.Idx)
    (h0 : (i 0).val = win0_1.index t (0 : Fin 2) * 1024 + (y 0).val)
    (h1 : (i 1).val = win0_1.index t (1 : Fin 2) * 256 + (y 1).val) :
    (iblk m c 1 t : Vec Ideal S1024x256 .f32) y = (V m c main_arg1 : S4096x256.Idx → EReal) i := by
  show V m c main_arg1 (((cfg0.win 1).blk t).view.emb y) = V m c main_arg1 i
  congr 1
  funext a; apply Fin.ext
  match a with
  | ⟨0, _⟩ => show win0_1.index t (0 : Fin 2) * 1024 + 1 * (y 0).val = (i 0).val; omega
  | ⟨1, _⟩ => show win0_1.index t (1 : Fin 2) * 256 + 1 * (y 1).val = (i 1).val; omega

/-- What point `t` writes back is its block of the table of the arrays as the region finds them. -/
theorem flushed_eq_table_block (c : Dev nD) (t : Fin cfg0.N) :
    (dats m 0 c).flushed 2 t
      = ((cfg0.win 2).blk t).view.read (Elt Ideal) (Cert.Rbf.table (V m c main_arg0) (V m c main_arg1)) := by
  rw [flushed2]
  unfold out0_2
  rw [View.canon_unit_zero origin]
  simp only [View.ld_unit_zero (S := S1024x256) origin]
  obtain ⟨e0, e1, e2, e3, b0, b1⟩ := block_indices t
  funext j
  have hp : (j 0).val < 1024 := (j 0).isLt
  have hq : (j 1).val < 1024 := (j 1).isLt
  obtain ⟨r, hr⟩ : ∃ r : Fin 8192, r.val = win0_2.index t (0 : Fin 2) * 1024 + (j 0).val := ⟨⟨_, by omega⟩, rfl⟩
  obtain ⟨s, hs⟩ : ∃ s : Fin 4096, s.val = win0_2.index t (1 : Fin 2) * 1024 + (j 1).val := ⟨⟨_, by omega⟩, rfl⟩
  have hi : ((cfg0.win 2).blk t).view.emb j = ix2 r s := by
    funext a; apply Fin.ext
    match a with
    | ⟨0, _⟩ => show win0_2.index t (0 : Fin 2) * 1024 + 1 * (j 0).val = r.val; omega
    | ⟨1, _⟩ => show win0_2.index t (1 : Fin 2) * 1024 + 1 * (j 1).val = s.val; omega
  show k0_pay1 (F := Ideal) (iblk m c 0 t) (iblk m c 1 t) j
    = Cert.Rbf.table (V m c main_arg0) (V m c main_arg1) (((cfg0.win 2).blk t).view.emb j)
  rw [hi, Cert.Rbf.table_ix2]
  exact entry_of_rows (iblk m c 0 t) (iblk m c 1 t) (V m c main_arg0) (V m c main_arg1) j r s
    (fun k => points_block_apply m c t (ix2 (j 0) k) (ix2 r k)
      (by show r.val = win0_0.index t (0 : Fin 2) * 1024 + (j 0).val; omega)
      (by show k.val = win0_0.index t (1 : Fin 2) * 256 + k.val; omega))
    (fun k => centres_block_apply m c t (ix2 (j 1) k) (ix2 s k)
      (by show s.val = win0_1.index t (0 : Fin 2) * 1024 + (j 1).val; omega)
      (by show k.val = win0_1.index t (1 : Fin 2) * 256 + k.val; omega))

/-- An index of the result is in point `t`'s block iff each coordinate is in the block's range on its axis. -/
theorem mem_block (t : Fin cfg0.N) (i : S8192x4096.Idx) :
    i ∈ ((cfg0.win 2).blk t).view.set
      ↔ ∀ a : Fin 2, win0_2.index t a * S1024x1024.size a ≤ (i a).val
          ∧ (i a).val < win0_2.index t a * S1024x1024.size a + S1024x1024.size a := by
  show i ∈ ((View.whole main_v0).slice (win0_2.rect t)).set ↔ _
  rw [View.set_slice_whole, Rect.mem_set_unit]
  exact Iff.rfl

/-- The blocks tile the result: index (a, b) is in the block of the point at (a / 1024, b / 1024). -/
theorem blocks_cover (i : S8192x4096.Idx) :
    ∃ t : Fin cfg0.N, (cfg0.win 2).flush t = true ∧ i ∈ ((cfg0.win 2).blk t).view.set := by
  have hi0 : (i 0).val < 8192 := (i 0).isLt
  have hi1 : (i 1).val < 4096 := (i 1).isLt
  obtain ⟨t, ht⟩ := block_of_every_corner ⟨(i 0).val / 1024, by omega⟩ ⟨(i 1).val / 1024, by omega⟩
  have q0 : win0_2.index t (0 : Fin 2) = (i 0).val / 1024 := congrFun ht 0
  have q1 : win0_2.index t (1 : Fin 2) = (i 1).val / 1024 := congrFun ht 1
  refine ⟨t, flush0_2 t, ?_⟩
  rw [mem_block]
  intro a
  match a with
  | ⟨0, _⟩ =>
    show win0_2.index t (0 : Fin 2) * 1024 ≤ (i 0).val ∧ (i 0).val < win0_2.index t (0 : Fin 2) * 1024 + 1024
    omega
  | ⟨1, _⟩ =>
    show win0_2.index t (1 : Fin 2) * 1024 ≤ (i 1).val ∧ (i 1).val < win0_2.index t (1 : Fin 2) * 1024 + 1024
    omega

/-- After the run the result array is the table of the argument arrays. -/
theorem result_eq_table (c : Dev nD) :
    (dats m 0 c).arrAt 2 cfg0.N
      = Cert.Rbf.table (m ((c : Thread nD τ).loc main_arg0)) (m ((c : Thread nD τ).loc main_arg1)) :=
  (dats m 0 c).arrAt_eq_of_cover 2 (Cert.Rbf.table (V m c main_arg0) (V m c main_arg1))
    (fun t _ => flushed_eq_table_block m c t) blocks_cover

/-- The kernel's run, read: the result array ends at the table of the arguments, the arguments unchanged. -/
theorem run : θ_run defs (onTc (τ := τ) (main (F := Ideal))) ⟨m, fun _ => 0, ρ⟩ fun r => ∀ c : Dev nD,
      r.2.mem ((c : Thread nD τ).loc main_v0)
        = Cert.Rbf.table (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (result_eq_table m c), (h c).2⟩) (run_blocks m ρ)

end Cert.KernelIdeal.Hand

end
-- ==== Proof.lean ====
/-
  The kernel and its reference compute the same table of radial-basis values.

  For 8192 points `x` and 4096 centres `w` in 256 coordinates, both programs fill an 8192 × 4096 array whose entry
  (r, s) is 15 · exp(−d / 1), with d the squared distance between point r and centre s in its expanded form
  |x_r|² + |w_s|² − 2·(x_r · w_s). Read over the extended reals:

  * the reference does this on the whole arrays (`Proof/ReferenceTable.lean`: its two sums of squares start from a zero
    that adds nothing, its broadcasts only move an index, its contraction is the sum of products over the coordinates);
  * the kernel does it block by block over an 8 × 4 grid (`Proof/BlockEntry.lean`: one grid point's entry is the value of
    its two row blocks — the lane sums, the column and row views, the matrix product into zero of operands whose
    narrowing changes nothing, and a negation written as 0 − d; `Proof/TableBlocks.lean`: a row of a block is a row of
    the array, each point writes its block of the table, and the 32 blocks tile the array).

  The two sides are the same expression of the same sums, so nothing about the inputs' finiteness is used: the only
  law between them, 0 − d = −d, holds for every extended real. The table itself is `Proof/RbfTable.lean`.

  Each program's frame (it terminates, faults nowhere, leaves its arguments as they were) is its generated run; the
  idealized kernel is the kernel's own text read over the extended reals, so there is nothing to preserve.
-/
import proofs.«127577_j36258113913185_1_alg».proof.Defs
import proofs.«127577_j36258113913185_1_alg».proof.Proof.Gen.Kernel
import proofs.«127577_j36258113913185_1_alg».proof.Proof.Gen.Kernel.Skeleton
import proofs.«127577_j36258113913185_1_alg».proof.Proof.Gen.Kernel.Launch
import proofs.«127577_j36258113913185_1_alg».proof.Proof.Gen.Kernel.Points
import proofs.«127577_j36258113913185_1_alg».proof.Proof.Gen.Kernel.Frame
import proofs.«127577_j36258113913185_1_alg».proof.Proof.Gen.KernelIdeal
import proofs.«127577_j36258113913185_1_alg».proof.Proof.Gen.KernelIdeal.Skeleton
import proofs.«127577_j36258113913185_1_alg».proof.Proof.Gen.KernelIdeal.Launch
import proofs.«127577_j36258113913185_1_alg».proof.Proof.Gen.KernelIdeal.Points
import proofs.«127577_j36258113913185_1_alg».proof.Proof.Gen.KernelIdeal.Frame
import proofs.«127577_j36258113913185_1_alg».proof.Proof.Gen.ReferenceIdeal
import proofs.«127577_j36258113913185_1_alg».proof.Proof.Gen.Pre_finite_inputs
import proofs.«127577_j36258113913185_1_alg».proof.Proof.Gen.KernelIdeal.Value
import proofs.«127577_j36258113913185_1_alg».proof.Proof.Gen.ReferenceIdeal.Run
import proofs.«127577_j36258113913185_1_alg».proof.Proof.Gen.ReferenceIdeal.Read
import proofs.«127577_j36258113913185_1_alg».proof.Proof.RbfTable
import proofs.«127577_j36258113913185_1_alg».proof.Proof.ReferenceTable
import proofs.«127577_j36258113913185_1_alg».proof.Proof.TableBlocks
import Idealize.ShloMosaic.Adequacy
import Idealize.ShloMosaic.Init

noncomputable section

namespace Cert.Proof

open Idealize.ShloMosaic Idealize.ShloMosaic.TcCoe Idealize.SL.Sem

/-- The kernel as printed runs and leaves its arguments as they were. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- And the reference: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Run from memories that agree on `x` and `w`, the kernel's result array and the reference's both end at the table of
    radial-basis values of `x` and `w`. -/
theorem algebraic : Cert.algebraic_KernelIdeal_ReferenceIdeal := by
  intro m ρ m' ρ' _ hagree
  refine ⟨fun c => Cert.Rbf.table (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.Hand.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v18_eq, Cert.ReferenceIdeal.RefValue.stage_eq_table, (hagree c).1, (hagree c).2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
